-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x600000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S5000x128 : Shape := ⟨2, ![5000, 128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩

abbrev nBuf : Space → Nat
  | .hbm => 48
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S128x128, .f32⟩
  | .hbm, ⟨9, _⟩ => ⟨S50000x128, .f32⟩
  | .hbm, ⟨10, _⟩ => ⟨S_, .f32⟩
  | .hbm, ⟨11, _⟩ => ⟨S600000, .f32⟩
  | .hbm, ⟨12, _⟩ => ⟨S_, .f32⟩
  | .hbm, ⟨13, _⟩ => ⟨S50000, .f32⟩
  | .hbm, ⟨14, _⟩ => ⟨S600000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S50000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S_, .f32⟩
  | .hbm, ⟨40, _⟩ => ⟨S50000x128, .f32⟩
  | .hbm, ⟨41, _⟩ => ⟨S600000x1, .i32⟩
  | .hbm, ⟨42, _⟩ => ⟨S50000x128, .f32⟩
  | .hbm, ⟨43, _⟩ => ⟨S50000x1, .f32⟩
  | .hbm, ⟨44, _⟩ => ⟨S50000x128, .f32⟩
  | .hbm, ⟨45, _⟩ => ⟨S50000x128, .f32⟩
  | .hbm, ⟨46, _⟩ => ⟨S1x128, .f32⟩
  | .hbm, ⟨47, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S128x128, .f32⟩
  | .hbm, ⟨9, _⟩ => ⟨S50000x128, .f32⟩
  | .hbm, ⟨10, _⟩ => ⟨S_, .f32⟩
  | .hbm, ⟨11, _⟩ => ⟨S600000, .f32⟩
  | .hbm, ⟨12, _⟩ => ⟨S_, .f32⟩
  | .hbm, ⟨13, _⟩ => ⟨S50000, .f32⟩
  | .hbm, ⟨14, _⟩ => ⟨S600000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000, .f32⟩
  | .hbm, ⟨45, _⟩ => ⟨S600000, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .f32⟩
  | .hbm, ⟨55, _⟩ => ⟨S600000x1, .f32⟩
  | .hbm, ⟨56, _⟩ => ⟨S600000x128, .f32⟩
  | .hbm, ⟨57, _⟩ => ⟨S600000x128, .f32⟩
  | .hbm, ⟨58, _⟩ => ⟨S_, .f32⟩
  | .hbm, ⟨59, _⟩ => ⟨S50000x128, .f32⟩
  | .hbm, ⟨60, _⟩ => ⟨S600000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S128x128_S128x128_1_0 : S128x128.Transposes [1, 0] S128x128
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.KRun.lean ====
/-
  The idealized kernel program's run with its RESULT named: every weakly fair execution ends, nothing faulting, with the
  result array holding what the second region's write-backs leave (the fold of the segment boundaries' contents at the
  result's buffer) and the four argument arrays as launched. The segments, the proof data and the launch are the frame's;
  only the final reading differs: the result buffer is read against the last boundary's contents as the arguments are.
-/
import proofs.«107665_j43671227466246_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result buffer read as the last boundary's contents hold it. -/
theorem run : θ_run defs (onTc (τ := τ) (main (F := F))) ⟨m, fun _ => 0, ρ⟩ (fun r => ∀ c : Dev nD,
      r.2.mem ((c.tc : Thread nD τ).loc main_v33) = W6 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v33 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.KRun

end
-- ==== Proof.KRegions.lean ====
/-
  The two regions of the idealized kernel program as whole-array functions of what each finds on entry.

  Region 0 (ten points, 5000 rows each): point t multiplies rows 5000t … 5000t + 4999 of the node features by the
  whole 128 × 128 weight operand into a zero accumulator, so the array it fills is, entry by entry, the sum over the
  contracted axis of feature × weight (`lin`). Region 1 (the same ten row blocks): point t adds the one bias row to its
  block of the aggregate, takes the maximum with zero and adds its block of the node features (`post`).
  Each block a point writes back is that function read through the block's rectangle, and the ten blocks tile the array.
-/
import proofs.«107665_j43671227466246_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KRegions

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0: features times weights -/

/-- Entry (n, k) of features × weights: the sum over the 128 contracted positions. -/
def lin (x : S50000x128.Idx → EReal) (wt : S128x128.Idx → EReal) : S50000x128.Idx → EReal :=
  fun i => ∑ k : Fin 128, x (ix2 (⟨(i 0).val, idx2_lt0 i⟩ : Fin 50000) k) * wt (ix2 k (⟨(i 1).val, idx2_lt1 i⟩ : Fin 128))

/-- The body's stored value at (p, q): row p of the loaded feature block against column q of the loaded weights. -/
theorem pay0_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  simp only [matmul]
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  rw [truncf_apply, truncf_apply, shapeCast_self]
  congr 1
  · refine congrArg x0 (funext fun a => Fin.ext ?_)
    match a with
    | ⟨0, _⟩ => rfl
    | ⟨1, _⟩ =>
      exact (DotDims.lhsIdx_val_of_single dot_S5000x128_S128x128_S5000x128_1_0_0_1_n_n (cl := 1) rfl _ _).trans
        (contrEquiv1_symm_val dot_S5000x128_S128x128_S5000x128_1_0_0_1_n_n 128 rfl rfl k)
  · refine congrArg x1 (funext fun a => Fin.ext ?_)
    match a with
    | ⟨0, _⟩ =>
      exact (DotDims.rhsIdx_val_of_single dot_S5000x128_S128x128_S5000x128_1_0_0_1_n_n (cr := 0) rfl _ _).trans
        (contrEquiv1_symm_val dot_S5000x128_S128x128_S5000x128_1_0_0_1_n_n 128 rfl rfl k)
    | ⟨1, _⟩ => rfl

/-- The printed index maps over the grid: the row blocks move with the point, the weights stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of `lin` of the two operands as the region finds them. -/
theorem flushed0 (c : Dev nD) (t : Fin cfg0.N) :
    (dat0 V c).flushed 2 t = ((cfg0.win 2).blk t).view.read (Elt Ideal) (lin (V c main_arg0) (V c main_v4)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts0 t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q) = lin (V c main_arg0) (V c main_v4) (((cfg0.win 2).blk t).view.emb (ix2 p q))
  rw [pay0_apply]
  unfold lin
  refine Finset.sum_congr rfl fun k _ => ?_
  congr 1
  · show V c main_arg0 (((cfg0.win 0).blk t).view.emb (ix2 p k)) = V c main_arg0 _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  · show V c main_v4 (((cfg0.win 1).blk t).view.emb (ix2 k q)) = V c main_v4 _
    refine congrArg (V c main_v4) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- Row n lies in the block of point n / 5000. -/
theorem cover0 (i : S50000x128.Idx) : ∃ t : Fin cfg0.N, (cfg0.win 2).flush t = true ∧ i ∈ ((cfg0.win 2).blk t).view.set := by
  have h0 : (i 0).val < 50000 := idx2_lt0 i
  have h1 : (i 1).val < 128 := idx2_lt1 i
  let t : Fin cfg0.N := ⟨(i 0).val / 5000, by rw [show cfg0.N = 10 from N_0]; omega⟩
  obtain ⟨e0, e1, e2, e3, e4, e5⟩ := idx_facts0 t
  refine ⟨t, flush0_2 t, ?_⟩
  show i ∈ ((View.whole main_v5).slice (win0_2.rect t)).set
  rw [View.set_slice_whole, Rect.mem_set_unit]
  intro a
  have ht : t.val = (i 0).val / 5000 := rfl
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The array region 0 leaves. -/
theorem final0 (c : Dev nD) : (dat0 V c).arrAt 2 cfg0.N = lin (V c main_arg0) (V c main_v4) :=
  (dat0 V c).arrAt_eq_of_cover 2 (lin (V c main_arg0) (V c main_v4)) (fun t _ => flushed0 V c t) cover0

/-! ## Region 1: bias, rectifier, residual -/

/-- Entry (n, k) of max(agg + bias, 0) + features. -/
def post (agg : S50000x128.Idx → EReal) (b2 : S1x128.Idx → EReal) (x : S50000x128.Idx → EReal) : S50000x128.Idx → EReal :=
  fun i => max (agg i + b2 (ix2 (0 : Fin 1) (⟨(i 1).val, idx2_lt1 i⟩ : Fin 128))) (Ideal.ofBits .f32 0x00000000#32) + x i

/-- The body's stored value at (p, q). -/
theorem pay1_apply (x0 : Vec Ideal S5000x128 .f32) (x1 : Vec Ideal S1x128 .f32) (x2 : Vec Ideal S5000x128 .f32) (p : Fin 5000) (q : Fin 128) :
    k1_pay1 x0 x1 x2 (ix2 p q) = max (x0 (ix2 p q) + x1 (ix2 (0 : Fin 1) q)) (Ideal.ofBits .f32 0x00000000#32) + x2 (ix2 p q) := by
  unfold k1_pay1
  rw [addf_apply, maximumf_apply, addf_apply, shapeCast_self, shapeCast_self, broadcastTo_1b_ab_apply]
  rfl

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point t writes back is block t of `post` of the three operands as the region finds them. -/
theorem flushed1 (c : Dev nD) (t : Fin cfg1.N) :
    (dat1 V c).flushed 3 t = ((cfg1.win 3).blk t).view.read (Elt Ideal) (post (V c main_v31) (V c main_v32) (V c main_arg0)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz]
  obtain ⟨e0, e1, e2, e3, e4, e5, e6, e7⟩ := idx_facts1 t
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q) = post (V c main_v31) (V c main_v32) (V c main_arg0) (((cfg1.win 3).blk t).view.emb (ix2 p q))
  rw [pay1_apply]
  have hA : iblk1 V c 0 t (ix2 p q) = V c main_v31 (((cfg1.win 3).blk t).view.emb (ix2 p q)) := by
    show V c main_v31 (((cfg1.win 0).blk t).view.emb (ix2 p q)) = V c main_v31 _
    refine congrArg (V c main_v31) (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * q.val = win1_3.index t (1 : Fin 2) * 128 + 1 * q.val; omega
  have hB : iblk1 V c 1 t (ix2 (0 : Fin 1) q) = V c main_v32 (ix2 (0 : Fin 1)
      (⟨((((cfg1.win 3).blk t).view.emb (ix2 p q)) 1).val, idx2_lt1 _⟩ : Fin 128)) := by
    show V c main_v32 (((cfg1.win 1).blk t).view.emb (ix2 (0 : Fin 1) q)) = V c main_v32 _
    refine congrArg (V c main_v32) (funext fun a => Fin.ext ?_)
    match a with
    | ⟨0, _⟩ => show win1_1.index t (0 : Fin 2) * 1 + 1 * 0 = 0; omega
    | ⟨1, _⟩ => show win1_1.index t (1 : Fin 2) * 128 + 1 * q.val = win1_3.index t (1 : Fin 2) * 128 + 1 * q.val; omega
  have hC : iblk1 V c 2 t (ix2 p q) = V c main_arg0 (((cfg1.win 3).blk t).view.emb (ix2 p q)) := by
    show V c main_arg0 (((cfg1.win 2).blk t).view.emb (ix2 p q)) = V c main_arg0 _
    refine congrArg (V c main_arg0) (funext fun a => Fin.ext ?_)
    match a with
    | ⟨0, _⟩ => show win1_2.index t (0 : Fin 2) * 5000 + 1 * p.val = win1_3.index t (0 : Fin 2) * 5000 + 1 * p.val; omega
    | ⟨1, _⟩ => show win1_2.index t (1 : Fin 2) * 128 + 1 * q.val = win1_3.index t (1 : Fin 2) * 128 + 1 * q.val; omega
  rw [hA, hB, hC]
  rfl

theorem cover1 (i : S50000x128.Idx) : ∃ t : Fin cfg1.N, (cfg1.win 3).flush t = true ∧ i ∈ ((cfg1.win 3).blk t).view.set := by
  have h0 : (i 0).val < 50000 := idx2_lt0 i
  have h1 : (i 1).val < 128 := idx2_lt1 i
  let t : Fin cfg1.N := ⟨(i 0).val / 5000, by rw [show cfg1.N = 10 from N_1]; omega⟩
  obtain ⟨e0, e1, e2, e3, e4, e5, e6, e7⟩ := idx_facts1 t
  refine ⟨t, flush1_3 t, ?_⟩
  show i ∈ ((View.whole main_v33).slice (win1_3.rect t)).set
  rw [View.set_slice_whole, Rect.mem_set_unit]
  intro a
  have ht : t.val = (i 0).val / 5000 := rfl
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The array region 1 leaves. -/
theorem final1 (c : Dev nD) : (dat1 V c).arrAt 3 cfg1.N = post (V c main_v31) (V c main_v32) (V c main_arg0) :=
  (dat1 V c).arrAt_eq_of_cover 3 (post (V c main_v31) (V c main_v32) (V c main_arg0)) (fun t _ => flushed1 V c t) cover1

end Cert.KernelIdeal.KRegions

end
-- ==== Proof.KHost.lean ====
/-
  The idealized kernel program's host operations between its two regions, and the program's result, as functions of
  the launch memory.

  From the edge list's two rows (sources `row`, targets `col`): the target degree `deg` (ones added into segments),
  the guarded inverse square root `dis`, the source rows wrapped when negative, and the aggregate
  dis · (segment sum over targets of the dis-scaled linear features gathered at the sources) (`aggK`).
  Region 0 leaves the linear features (features × transposed weights), region 1 max(aggregate + bias, 0) + features.
-/
import proofs.«107665_j43671227466246_2_alg».proof.Proof.KRegions
import Idealize.ShloMosaic.Lib.StableHlo.Run

set_option maxRecDepth 16384

noncomputable section

namespace Cert.KernelIdeal.KHost

open Cert.KernelIdeal Cert.KernelIdeal.Gen Cert.KernelIdeal.KRegions
open Idealize.ShloMosaic Idealize.ShloMosaic.TcCoe Idealize.ShloMosaic.Tactic Idealize.SL.Sem Idealize.ShloMosaic.StableHlo

section AnyInstance

variable {F : FTy → Type} [FloatOps F]
variable (m : (ℓ : Loc nD τ sig) → Buf (Elt F) ℓ) (ρ : Dev nD → PrngReg)

/-- Row r of the edge list as a vector. -/
def rowOf (ei : S2x600000.Idx → BitVec 32) : S600000.Idx → BitVec 32 :=
  shapeCast S600000 (extractStridedSlice S1x600000 ![0, 0] ei slices_S2x600000_S1x600000_0_0) shapeCasts_S1x600000_S600000
def colOf (ei : S2x600000.Idx → BitVec 32) : S600000.Idx → BitVec 32 :=
  shapeCast S600000 (extractStridedSlice S1x600000 ![1, 0] ei slices_S2x600000_S1x600000_1_0) shapeCasts_S1x600000_S600000

/-- The number of edges into each node, as a sum of ones. -/
def deg (col : S600000.Idx → BitVec 32) : FVec F S50000 .f32 :=
  Host.scatterAdd scatter_S50000_S600000x1_S600000_n_0_0_1
    (broadcastInDim S50000 ![] bcast_S_S50000 (constant (F := F) S_ .f32 0x00000000#32))
    (broadcastInDim S600000x1 ![0] bcast_S600000_S600000x1_0 col)
    (broadcastInDim S600000 ![] bcast_S_S600000 (constant (F := F) S_ .f32 0x3F800000#32))

/-- deg > 0 ? rsqrt(max(deg, ε)) : 0. -/
def dis (col : S600000.Idx → BitVec 32) : FVec F S50000 .f32 :=
  select (cmpf (F := F) .ogt (deg col) (broadcastInDim S50000 ![] bcast_S_S50000 (constant (F := F) S_ .f32 0x00000000#32)))
    (Host.rsqrt (maximumf (deg col) (broadcastInDim S50000 ![] bcast_S_S50000 (constant (F := F) S_ .f32 0x2B8CBCCC#32))))
    (broadcastInDim S50000 ![] bcast_S_S50000 (id (constant (F := F) S_ .f32 0x00000000#32)))

/-- An index list with its negative entries moved up by the node count, as a column. -/
def wrap (v : S600000.Idx → BitVec 32) : IVec S600000x1 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 50000#32))) v)

/-- dis down the feature axis. -/
def disMat (col : S600000.Idx → BitVec 32) : FVec F S50000x128 .f32 :=
  broadcastInDim S50000x128 ![0, 1] bcast_S50000x1_S50000x128_0_1 (broadcastInDim S50000x1 ![0] bcast_S50000_S50000x1_0 (dis col))

/-- The aggregate in the hoisted arrangement. -/
def aggK (xl : FVec F S50000x128 .f32) (row col : S600000.Idx → BitVec 32) : FVec F S50000x128 .f32 :=
  mulf (Host.scatterAdd scatter_S50000x128_S600000x1_S600000x128_1_0_0_1
      (broadcastInDim S50000x128 ![] bcast_S_S50000x128 (constant (F := F) S_ .f32 0x00000000#32))
      (broadcastInDim S600000x1 ![0] bcast_S600000_S600000x1_0 col)
      (Host.gather gather_S50000x128_S600000x1_S600000x128_1_0_n_n_0_1_1128 (mulf xl (disMat col)) (wrap row)))
    (disMat col)

/-- A degree factor at a node, spelt out. -/
theorem dis_apply (col : S600000.Idx → BitVec 32) (n : S50000.Idx) : dis (F := F) col n
    = Scalar.select (FloatOps.cmpf .ogt (deg (F := F) col n) (FloatOps.ofBits .f32 0x00000000#32))
        (FloatOps.hostUnary .rsqrt (FloatOps.maximumf (deg (F := F) col n) (FloatOps.ofBits .f32 0x2B8CBCCC#32)))
        (FloatOps.ofBits .f32 0x00000000#32) := rfl

/-! ## The second region's operands on entry -/

set_option maxHeartbeats 8000000 in
theorem v31_eq (c : Dev nD) : V5 m ρ c main_v31
    = aggK (W2 m ρ c (Proc.devRef .tc main_v5)) (W2 m ρ c (Proc.devRef .tc main_v1)) (W2 m ρ c (Proc.devRef .tc main_v3)) := by
  show StableHlo.after hostOps1_2 (W4 m ρ c) (Proc.devRef .tc main_v31) = _
  after_results_simp
  generalize W2 m ρ c (Proc.devRef .tc main_v5) = a5
  generalize W2 m ρ c (Proc.devRef .tc main_v1) = a1
  generalize W2 m ρ c (Proc.devRef .tc main_v3) = a3
  unfold aggK disMat dis deg wrap
  rfl

set_option maxHeartbeats 8000000 in
theorem v32_eq (c : Dev nD) : V5 m ρ c main_v32
    = shapeCast S1x128 (W2 m ρ c (Proc.devRef .tc main_arg3)) shapeCasts_S128_S1x128 := by
  show StableHlo.after hostOps1_2 (W4 m ρ c) (Proc.devRef .tc main_v32) = _
  after_results_simp
  rfl

set_option maxHeartbeats 8000000 in
theorem arg0_eq (c : Dev nD) : V5 m ρ c main_arg0 = W2 m ρ c (Proc.devRef .tc main_arg0) := by
  show StableHlo.after hostOps1_2 (W4 m ρ c) (Proc.devRef .tc main_arg0) = _
  after_results_simp
  try rfl

/-! ## What the first region left, and what it found -/

theorem w2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (by
    show StableHlo.after hostOps0 (W0 m ρ c) (Proc.devRef .tc main_arg0) = _
    after_results
    try rfl)

theorem w2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results
    try rfl)

theorem w2_v1 (c : Dev nD) : W2 m ρ c (Proc.devRef .tc main_v1) = rowOf (m ((c : Thread nD τ).loc main_arg1)) :=
  (W2_of_ne m ρ c main_v1 (by decide)).trans (by
    show StableHlo.after hostOps0 (W0 m ρ c) (Proc.devRef .tc main_v1) = _
    after_results
    rfl)

theorem w2_v3 (c : Dev nD) : W2 m ρ c (Proc.devRef .tc main_v3) = colOf (m ((c : Thread nD τ).loc main_arg1)) :=
  (W2_of_ne m ρ c main_v3 (by decide)).trans (by
    show StableHlo.after hostOps0 (W0 m ρ c) (Proc.devRef .tc main_v3) = _
    after_results
    rfl)

theorem v1_arg0 (c : Dev nD) : V1 m ρ c main_arg0 = m ((c : Thread nD τ).loc main_arg0) := by
  show StableHlo.after hostOps0 (W0 m ρ c) (Proc.devRef .tc main_arg0) = _
  after_results
  try rfl

theorem v1_v4 (c : Dev nD) : V1 m ρ c main_v4
    = transpose S128x128 [1, 0] (m ((c : Thread nD τ).loc main_arg2)) transposes_S128x128_S128x128_1_0 := by
  show StableHlo.after hostOps0 (W0 m ρ c) (Proc.devRef .tc main_v4) = _
  after_results
  try rfl

end AnyInstance

/-! ## The result, at the ideal instance -/

variable (m : (ℓ : Loc nD τ sig) → Buf (Elt Ideal) ℓ) (ρ : Dev nD → PrngReg)

/-- Region 0 leaves the linear features. -/
theorem w2_v5 (c : Dev nD) : W2 m ρ c (Proc.devRef .tc main_v5) = lin (V1 m ρ c main_arg0) (V1 m ρ c main_v4) :=
  (W2_arr m ρ c 2).trans (final0 (V1 m ρ) c)

/-- The program's result as a function of its four arguments. -/
def out (x : S50000x128.Idx → EReal) (ei : S2x600000.Idx → BitVec 32) (w : S128x128.Idx → EReal) (b : S128.Idx → EReal) :
    S50000x128.Idx → EReal :=
  post (aggK (F := Ideal) (lin x (transpose S128x128 [1, 0] w transposes_S128x128_S128x128_1_0)) (rowOf ei) (colOf ei))
    (shapeCast S1x128 b shapeCasts_S128_S1x128) x

theorem result_eq (c : Dev nD) : W6 m ρ c (Proc.devRef .tc main_v33)
    = out (m ((c : Thread nD τ).loc main_arg0)) (m ((c : Thread nD τ).loc main_arg1))
        (m ((c : Thread nD τ).loc main_arg2)) (m ((c : Thread nD τ).loc main_arg3)) := by
  refine ((W6_arr m ρ c 3).trans (final1 (V5 m ρ) c)).trans ?_
  rw [v31_eq, v32_eq, arg0_eq, w2_v5, w2_arg0, w2_arg3, w2_v1, w2_v3, v1_arg0, v1_v4]
  rfl

end Cert.KernelIdeal.KHost

end
-- ==== Proof.RefValue.lean ====
/-
  The idealized reference's result as a function of its four arguments, in the reference's own arrangement: every
  edge's gathered row of the linear features scaled by the product of the two inverse-square-root degree factors
  gathered at its source and at its target, the scaled rows added into their target segments, then bias, rectifier and
  residual. The run's composed term is this function by unfolding.
-/
import proofs.«107665_j43671227466246_2_alg».proof.Proof.RefRun
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen
open Idealize.ShloMosaic Idealize.ShloMosaic.TcCoe Idealize.SL.Sem Idealize.ShloMosaic.ValueIdx

section AnyInstance

variable {F : FTy → Type} [FloatOps F]

def rowOf (ei : S2x600000.Idx → BitVec 32) : S600000.Idx → BitVec 32 :=
  shapeCast S600000 (extractStridedSlice S1x600000 ![0, 0] ei slices_S2x600000_S1x600000_0_0) shapeCasts_S1x600000_S600000
def colOf (ei : S2x600000.Idx → BitVec 32) : S600000.Idx → BitVec 32 :=
  shapeCast S600000 (extractStridedSlice S1x600000 ![1, 0] ei slices_S2x600000_S1x600000_1_0) shapeCasts_S1x600000_S600000

def deg (col : S600000.Idx → BitVec 32) : FVec F S50000 .f32 :=
  Host.scatterAdd scatter_S50000_S600000x1_S600000_n_0_0_1
    (broadcastInDim S50000 ![] bcast_S_S50000 (constant (F := F) S_ .f32 0x00000000#32))
    (broadcastInDim S600000x1 ![0] bcast_S600000_S600000x1_0 col)
    (broadcastInDim S600000 ![] bcast_S_S600000 (constant (F := F) S_ .f32 0x3F800000#32))

def dis (col : S600000.Idx → BitVec 32) : FVec F S50000 .f32 :=
  select (cmpf (F := F) .ogt (deg col) (broadcastInDim S50000 ![] bcast_S_S50000 (constant (F := F) S_ .f32 0x00000000#32)))
    (Host.rsqrt (maximumf (deg col) (broadcastInDim S50000 ![] bcast_S_S50000 (constant (F := F) S_ .f32 0x2B8CBCCC#32))))
    (broadcastInDim S50000 ![] bcast_S_S50000 (id (constant (F := F) S_ .f32 0x00000000#32)))

def wrap (v : S600000.Idx → BitVec 32) : IVec S600000x1 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 50000#32))) v)

/-- The aggregate in the per-edge arrangement. -/
def aggR (xl : FVec F S50000x128 .f32) (row col : S600000.Idx → BitVec 32) : FVec F S50000x128 .f32 :=
  Host.scatterAdd scatter_S50000x128_S600000x1_S600000x128_1_0_0_1
    (broadcastInDim S50000x128 ![] bcast_S_S50000x128 (constant (F := F) S_ .f32 0x00000000#32))
    (broadcastInDim S600000x1 ![0] bcast_S600000_S600000x1_0 col)
    (mulf (Host.gather gather_S50000x128_S600000x1_S600000x128_1_0_n_n_0_1_1128 xl (wrap row))
      (broadcastInDim S600000x128 ![0, 1] bcast_S600000x1_S600000x128_0_1 (broadcastInDim S600000x1 ![0] bcast_S600000_S600000x1_0
        (mulf (Host.gather gather_S50000_S600000x1_S600000_n_0_n_n_0_1_1 (dis col) (wrap row))
          (Host.gather gather_S50000_S600000x1_S600000_n_0_n_n_0_1_1 (dis col) (wrap col))))))

/-- The linear features: features × transposed weights. -/
def linR (x : FVec F S50000x128 .f32) (w : FVec F S128x128 .f32) : FVec F S50000x128 .f32 :=
  Host.dotGeneral dot_S50000x128_S128x128_S50000x128_1_0_0_1_n_n none x (transpose S128x128 [1, 0] w transposes_S128x128_S128x128_1_0)

/-- The reference's result. -/
def outR (x : FVec F S50000x128 .f32) (ei : S2x600000.Idx → BitVec 32) (w : FVec F S128x128 .f32) (b : FVec F S128 .f32) :
    FVec F S50000x128 .f32 :=
  addf (maximumf (addf (aggR (linR x w) (rowOf ei) (colOf ei))
      (broadcastInDim S50000x128 ![0, 1] bcast_S1x128_S50000x128_0_1 (broadcastInDim S1x128 ![1] bcast_S128_S1x128_1 b)))
    (broadcastInDim S50000x128 ![] bcast_S_S50000x128 (constant (F := F) S_ .f32 0x00000000#32))) x

/-- The run's composed term is `outR` of the launch contents of the arguments. -/
theorem res_eq (m : (ℓ : Loc nD τ sig) → Buf (Elt F) ℓ) (c : Dev nD) :
    Cert.ReferenceIdeal.ValueP.res_main_v48 (F := F) m c
      = outR (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.ValueP.res_main_v48
  rfl

end AnyInstance

/-- The host's contraction at (n, k): the sum over the 128 contracted positions. -/
theorem dot_apply (x : FVec Ideal S50000x128 .f32) (wt : FVec Ideal S128x128 .f32) (i : S50000x128.Idx) :
    Host.dotGeneral dot_S50000x128_S128x128_S50000x128_1_0_0_1_n_n none x wt i
      = ∑ k : Fin 128, x (ix2 (⟨(i 0).val, idx2_lt0 i⟩ : Fin 50000) k) * wt (ix2 k (⟨(i 1).val, idx2_lt1 i⟩ : Fin 128)) := by
  simp only [Host.dotGeneral]
  refine (Ideal.dotGeneral_apply dot_S50000x128_S128x128_S50000x128_1_0_0_1_n_n none _ x wt i).trans ?_
  rw [← Equiv.sum_comp (contrEquiv1 dot_S50000x128_S128x128_S50000x128_1_0_0_1_n_n 128 rfl rfl).symm]
  refine Finset.sum_congr rfl fun k _ => ?_
  congr 1
  · refine congrArg x (funext fun a => Fin.ext ?_)
    match a with
    | ⟨0, _⟩ => rfl
    | ⟨1, _⟩ =>
      exact (DotDims.lhsIdx_val_of_single dot_S50000x128_S128x128_S50000x128_1_0_0_1_n_n (cl := 1) rfl _ _).trans
        (contrEquiv1_symm_val dot_S50000x128_S128x128_S50000x128_1_0_0_1_n_n 128 rfl rfl k)
  · refine congrArg wt (funext fun a => Fin.ext ?_)
    match a with
    | ⟨0, _⟩ =>
      exact (DotDims.rhsIdx_val_of_single dot_S50000x128_S128x128_S50000x128_1_0_0_1_n_n (cr := 0) rfl _ _).trans
        (contrEquiv1_symm_val dot_S50000x128_S128x128_S50000x128_1_0_0_1_n_n 128 rfl rfl k)
    | ⟨1, _⟩ => rfl

end Cert.ReferenceIdeal.RefValue

end
-- ==== Proof.LibSegSum.lean ====
/-
  Gathering rows by an index list and adding rows into segments, read at an index, and the law that lets a factor
  which depends only on the SEGMENT leave a segment sum.

  * a gather of whole rows of an [N, C] array at start indices [R, 1] reads row clamp(idx e) of the operand, and the
    rank-1 form (an [N] vector gathered at [R, 1]) reads entry clamp(idx e);
  * an update (e, k) of an add-scatter of [R, C] updates into an [N, C] operand at scatter indices [R, 1] lands on
    element (n, k') only if the signed index of e IS n;
  * on the extended reals a factor D with 0 ≤ D < ⊤ distributes over a finite sum, whatever the summands are
    (no summand needs to be finite);
  * hence, for per-node factors D that are all in [0, ⊤): scaling the gathered rows by D at their SOURCE node before the
    segment sum and the sum by D at the TARGET node after it gives, element by element, the segment sum of the rows each
    scaled by the product of the two factors gathered per edge — provided the edge's target factor is gathered at the
    index the scatter itself uses whenever that index is in range (the update is dropped otherwise).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibSegSum

open Idealize.ShloMosaic Idealize.ShloMosaic.ValueIdx

/-! ## The dimension numbers -/

/-- Rows of an [N, C] operand gathered at start indices [R, 1]: result [R, C]. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entries of an [N] operand gathered at start indices [R, 1]: result [R]. -/
abbrev entriesDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Rows [R, C] added into an [N, C] operand at scatter indices [R, 1]. -/
abbrev addRowsDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The start-indices index [e, 0] of edge e. -/
abbrev at0 {R : Nat} (e : Fin R) : (⟨2, ![R, 1]⟩ : Shape).Idx := ix2 e (⟨0, Nat.one_pos⟩ : Fin 1)

/-- A signed index clamped into [0, N − 1]. -/
abbrev clampIx {N : Nat} (hN : 0 < N) (v : BitVec 32) : Fin N := ⟨min v.toInt.toNat (N - 1), by omega⟩

/-! ## The gathers read at an index -/

section Gather
variable {α : Type}

theorem gather_rows_apply {N R C : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (e : Fin R) (k : Fin C) :
    Host.gather (rowsDims N R C wf) x idx (ix2 e k) = x (ix2 (clampIx hN (idx (at0 e))) k) := by
  unfold Host.gather
  congr 1
  funext a
  refine Fin.ext ?_
  have hsi : (rowsDims N R C wf).siIdx (ix2 e k) ⟨List.idxOf (0 : Fin 2) (rowsDims N R C wf).startIndexMap,
      List.idxOf_lt_length_iff.2 (List.mem_singleton.mpr rfl)⟩ = at0 e := by
    funext b; refine Fin.ext ?_
    match b with
    | ⟨0, _⟩ => rfl
    | ⟨1, _⟩ => rfl
  match a with
  | ⟨0, _⟩ =>
    show (rowsDims N R C wf).start (ix2 e k) idx 0 + (rowsDims N R C wf).batchCoord (ix2 e k) 0
      + (rowsDims N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    rw [hsi]
    rfl
  | ⟨1, _⟩ =>
    show (rowsDims N R C wf).start (ix2 e k) idx 1 + (rowsDims N R C wf).batchCoord (ix2 e k) 1
      + (rowsDims N R C wf).offCoord (ix2 e k) 1 = _
    rw [GatherDims.batchCoord_eq_zero _ _ _ List.not_mem_nil]
    unfold GatherDims.start
    rw [dif_neg (show (1 : Fin 2) ∉ (rowsDims N R C wf).startIndexMap from (by decide : (1 : Fin 2) ∉ ([0] : List (Fin 2))))]
    simp only [Nat.add_zero, Nat.zero_add]
    rfl

theorem gather_entries_apply {N R : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ 32) (e : Fin R) :
    Host.gather (entriesDims N R wf) x idx (ix1 e) = x (ix1 (clampIx hN (idx (at0 e)))) := by
  unfold Host.gather
  congr 1
  funext a
  obtain rfl : a = 0 := Subsingleton.elim _ _
  refine Fin.ext ?_
  show (entriesDims N R wf).start (ix1 e) idx 0 + (entriesDims N R wf).batchCoord (ix1 e) 0
    + (entriesDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx (ix1 e) ⟨List.idxOf (0 : Fin 1) (entriesDims N R wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

end Gather

/-! ## Where an added row lands -/

theorem addRows_lands {N R C : Nat}
    (wf : ScatterDims.WF ⟨2, ![N, C]⟩ ⟨2, ![R, 1]⟩ ⟨2, ![R, C]⟩ [1] [0] [0] 1)
    (idx : IVec ⟨2, ![R, 1]⟩ 32) (e : Fin R) (k : Fin C) (i : (⟨2, ![N, C]⟩ : Shape).Idx)
    (h : (addRowsDims N R C wf).resultIdx? (ix2 e k) idx = some i) :
    (idx (at0 e)).toInt = ((i 0).val : Int) := by
  have hsi : (addRowsDims N R C wf).siIdx (ix2 e k) ⟨List.idxOf (0 : Fin 2) (addRowsDims N R C wf).scatterDimsToOperandDims,
      List.idxOf_lt_length_iff.2 (List.mem_singleton.mpr rfl)⟩ = at0 e := by
    funext b; refine Fin.ext ?_
    match b with
    | ⟨0, _⟩ => rfl
    | ⟨1, _⟩ => rfl
  have hstart : (addRowsDims N R C wf).start (ix2 e k) idx 0 = (idx (at0 e)).toInt := by
    unfold ScatterDims.start
    rw [dif_pos (show (0 : Fin 2) ∈ (addRowsDims N R C wf).scatterDimsToOperandDims from List.mem_singleton.mpr rfl), hsi]
  have hwin : (addRowsDims N R C wf).window (ix2 e k) 0 = 0 := by
    unfold ScatterDims.window
    rw [dif_neg (show (0 : Fin 2) ∉ (addRowsDims N R C wf).sKept from (by decide : (0 : Fin 2) ∉ (List.finRange 2).filter (· ∉ ([0] : List (Fin 2)))))]
  unfold ScatterDims.resultIdx? at h
  split at h
  · rename_i hin
    have h0 := congrArg (fun f => (f 0).val) (Option.some.inj h)
    simp only at h0
    have hb := (hin 0).1
    rw [hstart, hwin] at h0 hb
    simp only [Nat.cast_zero, add_zero] at h0 hb
    omega
  · exact absurd h (by simp)

/-! ## A factor in [0, ⊤) leaves a sum -/

theorem sum_mul_of_nonneg_ne_top {ι : Type} [DecidableEq ι] (s : Finset ι) (f : ι → EReal) (D : EReal)
    (h0 : 0 ≤ D) (ht : D ≠ ⊤) : (∑ j ∈ s, f j) * D = ∑ j ∈ s, f j * D := by
  induction s using Finset.induction_on with
  | empty => simp
  | insert a s ha ih =>
    rw [Finset.sum_insert ha, Finset.sum_insert ha, EReal.right_distrib_of_nonneg_of_ne_top h0 ht, ih]

/-! ## Two keepdims broadcasts in a row: a vector down the rows of a matrix -/

section Bcast
variable {α : Type}

/-- [A] → [A, 1] → [A, B], read at (a, b): the vector's entry a. -/
theorem bcast_col_apply {A B : Nat}
    (h1 : (⟨1, ![A]⟩ : Shape).BroadcastsInDim ⟨2, ![A, 1]⟩ ![0])
    (h2 : (⟨2, ![A, 1]⟩ : Shape).BroadcastsInDim ⟨2, ![A, B]⟩ ![0, 1])
    (v : (⟨1, ![A]⟩ : Shape).Idx → α) (a : Fin A) (b : Fin B) :
    broadcastInDim ⟨2, ![A, B]⟩ ![0, 1] h2 (broadcastInDim ⟨2, ![A, 1]⟩ ![0] h1 v) (ix2 a b) = v (ix1 a) := by
  refine (broadcastInDim_apply ![0, 1] h2 _ (ix2 a b) (ix2 a (⟨0, Nat.one_pos⟩ : Fin 1)) fun d => ?_).trans
    (broadcastInDim_apply ![0] h1 v (ix2 a (⟨0, Nat.one_pos⟩ : Fin 1)) (ix1 a) fun d => ?_)
  · match d with
    | ⟨0, _⟩ =>
      show a.val = if A = 1 then 0 else a.val
      split
      · have := a.isLt; omega
      · rfl
    | ⟨1, _⟩ => exact (if_pos rfl).symm
  · match d with
    | ⟨0, _⟩ =>
      show a.val = if A = 1 then 0 else a.val
      split
      · have := a.isLt; omega
      · rfl

/-- [A] → [A, 1], read at (a, 0): the vector's entry a. -/
theorem bcast_unit_apply {A : Nat}
    (h1 : (⟨1, ![A]⟩ : Shape).BroadcastsInDim ⟨2, ![A, 1]⟩ ![0])
    (v : (⟨1, ![A]⟩ : Shape).Idx → α) (a : Fin A) :
    broadcastInDim ⟨2, ![A, 1]⟩ ![0] h1 v (at0 a) = v (ix1 a) := by
  refine broadcastInDim_apply ![0] h1 v (at0 a) (ix1 a) fun d => ?_
  match d with
  | ⟨0, _⟩ =>
    show a.val = if A = 1 then 0 else a.val
    split
    · have := a.isLt; omega
    · rfl

/-- [B] → [1, B] → [A, B], read at (a, b): the vector's entry b. -/
theorem bcast_row_apply {A B : Nat}
    (h1 : (⟨1, ![B]⟩ : Shape).BroadcastsInDim ⟨2, ![1, B]⟩ ![1])
    (h2 : (⟨2, ![1, B]⟩ : Shape).BroadcastsInDim ⟨2, ![A, B]⟩ ![0, 1])
    (v : (⟨1, ![B]⟩ : Shape).Idx → α) (a : Fin A) (b : Fin B) :
    broadcastInDim ⟨2, ![A, B]⟩ ![0, 1] h2 (broadcastInDim ⟨2, ![1, B]⟩ ![1] h1 v) (ix2 a b) = v (ix1 b) := by
  refine (broadcastInDim_apply ![0, 1] h2 _ (ix2 a b) (ix2 (⟨0, Nat.one_pos⟩ : Fin 1) b) fun d => ?_).trans
    (broadcastInDim_apply ![1] h1 v (ix2 (⟨0, Nat.one_pos⟩ : Fin 1) b) (ix1 b) fun d => ?_)
  · match d with
    | ⟨0, _⟩ => exact (if_pos rfl).symm
    | ⟨1, _⟩ =>
      show b.val = if B = 1 then 0 else b.val
      split
      · have := b.isLt; omega
      · rfl
  · match d with
    | ⟨0, _⟩ =>
      show b.val = if B = 1 then 0 else b.val
      split
      · have := b.isLt; omega
      · rfl

end Bcast

/-! ## A negative index wrapped, an index that is not negative left alone -/

/-- select(v < 0, a, v) is v when v is not negative as a signed word. -/
theorem wrap_of_nonneg (v a : BitVec 32) (h : 0 ≤ v.toInt) : Scalar.select (IntOp.cmpi .slt v 0#32) a v = v := by
  have hs : v.slt 0#32 = false := by
    simp only [BitVec.slt, BitVec.toInt_zero, decide_eq_false_iff_not, not_lt]
    exact h
  have hc : IntOp.cmpi .slt v 0#32 = 0#1 := by
    show BitVec.ofBool (v.slt 0#32) = 0#1
    rw [hs]; rfl
  rw [hc]
  exact select_zero _ _

/-! ## The inverse square root of a degree, guarded at zero, lies in [0, ⊤) -/

theorem rsqrt_range (v : EReal) (hv : 0 < v) : 0 ≤ Ideal.rsqrt v ∧ Ideal.rsqrt v ≠ ⊤ := by
  induction v using EReal.rec with
  | bot => exact absurd hv (by simp)
  | coe r =>
    have hr : 0 < r := by exact_mod_cast hv
    rw [Ideal.rsqrt_coe, if_neg (not_lt.mpr hr.le), if_neg hr.ne']
    exact ⟨by exact_mod_cast (inv_nonneg.mpr (Real.sqrt_nonneg r)), EReal.coe_ne_top _⟩
  | top => rw [Ideal.rsqrt_top]; exact ⟨le_refl _, EReal.zero_ne_top⟩

/-- select(g > z, rsqrt(max(g, ε)), z) with ε > 0 and z = 0 is a number in [0, ⊤), whatever g is. -/
theorem guarded_rsqrt_range (g eps z : EReal) (heps : 0 < eps) (hz : z = 0) :
    0 ≤ Scalar.select (Ideal.cmp .ogt g z) (Ideal.rsqrt (max g eps)) z
      ∧ Scalar.select (Ideal.cmp .ogt g z) (Ideal.rsqrt (max g eps)) z ≠ ⊤ := by
  unfold Scalar.select
  split
  · exact rsqrt_range _ (lt_of_lt_of_le heps (le_max_right _ _))
  · rw [hz]; exact ⟨le_refl _, EReal.zero_ne_top⟩

/-! ## The law -/

/-- Rows scaled by D at the source before the segment sum and by D at the target after it, against the rows scaled per
    edge by the product of the two gathered factors: equal element by element when every D is in [0, ⊤), the operand
    being added into is zero, and the target factor's gather index is the scatter's own index wherever that is not
    negative. -/
theorem hoist {N R C : Nat} (hN : 0 < N)
    (wfS : ScatterDims.WF ⟨2, ![N, C]⟩ ⟨2, ![R, 1]⟩ ⟨2, ![R, C]⟩ [1] [0] [0] 1)
    (wfG : GatherDims.WF ⟨2, ![N, C]⟩ ⟨2, ![R, 1]⟩ ⟨2, ![R, C]⟩ [1] [0] [] [0] [] 1 ![1, C])
    (wfV : GatherDims.WF ⟨1, ![N]⟩ ⟨2, ![R, 1]⟩ ⟨1, ![R]⟩ [] [0] [] [0] [] 1 ![1])
    (h1 : (⟨1, ![N]⟩ : Shape).BroadcastsInDim ⟨2, ![N, 1]⟩ ![0])
    (h2 : (⟨2, ![N, 1]⟩ : Shape).BroadcastsInDim ⟨2, ![N, C]⟩ ![0, 1])
    (g1 : (⟨1, ![R]⟩ : Shape).BroadcastsInDim ⟨2, ![R, 1]⟩ ![0])
    (g2 : (⟨2, ![R, 1]⟩ : Shape).BroadcastsInDim ⟨2, ![R, C]⟩ ![0, 1])
    (Z XL : FVec Ideal ⟨2, ![N, C]⟩ .f32) (hZ : ∀ i, Z i = 0)
    (D : FVec Ideal ⟨1, ![N]⟩ .f32) (hD : ∀ n, 0 ≤ D n ∧ D n ≠ ⊤)
    (rW cW cB : IVec ⟨2, ![R, 1]⟩ 32)
    (hW : ∀ e : Fin R, 0 ≤ (cB (at0 e)).toInt → cW (at0 e) = cB (at0 e)) :
    mulf (Host.scatterAdd (addRowsDims N R C wfS) Z cB
        (Host.gather (rowsDims N R C wfG)
          (mulf XL (broadcastInDim ⟨2, ![N, C]⟩ ![0, 1] h2 (broadcastInDim ⟨2, ![N, 1]⟩ ![0] h1 D))) rW))
      (broadcastInDim ⟨2, ![N, C]⟩ ![0, 1] h2 (broadcastInDim ⟨2, ![N, 1]⟩ ![0] h1 D))
    = Host.scatterAdd (addRowsDims N R C wfS) Z cB
        (mulf (Host.gather (rowsDims N R C wfG) XL rW)
          (broadcastInDim ⟨2, ![R, C]⟩ ![0, 1] g2 (broadcastInDim ⟨2, ![R, 1]⟩ ![0] g1
            (mulf (Host.gather (entriesDims N R wfV) D rW) (Host.gather (entriesDims N R wfV) D cW))))) := by
  funext i
  obtain ⟨n, k, rfl⟩ : ∃ (n : Fin N) (k : Fin C), i = ix2 n k := ⟨i 0, i 1, eq_ix2 i⟩
  rw [mulf_apply, bcast_col_apply]
  simp only [Host.scatterAdd, Ideal.hostScatterAdd_def, Ideal.hostScatterAdd]
  rw [hZ, zero_add, zero_add, sum_mul_of_nonneg_ne_top _ _ _ (hD _).1 (hD _).2]
  refine Finset.sum_congr rfl fun j hj => ?_
  obtain ⟨e, k', rfl⟩ : ∃ (e : Fin R) (k' : Fin C), j = ix2 e k' := ⟨j 0, j 1, eq_ix2 j⟩
  have hland := addRows_lands wfS cB e k' (ix2 n k) (Finset.mem_filter.mp hj).2
  have hcl : clampIx hN (cW (at0 e)) = n := by
    rw [hW e (by rw [hland]; exact Int.natCast_nonneg _)]
    refine Fin.ext ?_
    show min (cB (at0 e)).toInt.toNat (N - 1) = n.val
    have hn := n.isLt
    rw [hland]
    show min ((n.val : Int)).toNat (N - 1) = n.val
    rw [Int.toNat_natCast]
    omega
  rw [gather_rows_apply hN, mulf_apply, bcast_col_apply, mulf_apply, gather_rows_apply hN, bcast_col_apply, mulf_apply,
    gather_entries_apply hN, gather_entries_apply hN, hcl, mul_assoc]

end Cert.LibSegSum

end
-- ==== Proof.Bridge.lean ====
/-
  The two results are one function of the four arguments.

  Both programs compute the same linear features (a sum over the 128 contracted positions), the same degree factors
  `dis` from the target row of the edge list, and the same wrapped source indices. They differ in where the factors
  multiply: the kernel program scales the linear features by dis at the source node before gathering and the segment sum
  by dis at the target node after it; the reference scales each gathered row by dis[source] · dis[target]. An update is
  added into segment n exactly when its target index, read signed, IS n; for such an edge the target index is not
  negative, so wrapping leaves it alone and clamping it into range gives n back: the reference's dis[target] is dis n.
  Every dis n is either 0 or the inverse square root of a number ≥ ε > 0, hence in [0, ⊤), and such a factor distributes
  over a sum of extended reals whatever the summands are — so the two aggregates agree at every element, for every
  input: no finiteness of the features or the weights is needed. Bias, rectifier and residual are then the same
  pointwise operations on both sides.
-/
import proofs.«107665_j43671227466246_2_alg».proof.Proof.KHost
import proofs.«107665_j43671227466246_2_alg».proof.Proof.RefValue
import proofs.«107665_j43671227466246_2_alg».proof.Proof.LibSegSum
import Idealize.ShloMosaic.Lib.IdealHost
import Idealize.ShloMosaic.Lib.ValueLayout

set_option maxRecDepth 16384

noncomputable section

open scoped BigOperators

namespace Cert.Bridge

open Idealize.ShloMosaic Idealize.ShloMosaic.ValueIdx Cert.LibSegSum

/-! ## The two programs' host vocabulary is one vocabulary (any float instance) -/

section AnyInstance
variable {F : FTy → Type} [FloatOps F]

theorem rowOf_eq (ei : Cert.KernelIdeal.S2x600000.Idx → BitVec 32) :
    Cert.ReferenceIdeal.RefValue.rowOf ei = Cert.KernelIdeal.KHost.rowOf ei := rfl
theorem colOf_eq (ei : Cert.KernelIdeal.S2x600000.Idx → BitVec 32) :
    Cert.ReferenceIdeal.RefValue.colOf ei = Cert.KernelIdeal.KHost.colOf ei := rfl
theorem wrap_eq (v : Cert.KernelIdeal.S600000.Idx → BitVec 32) :
    Cert.ReferenceIdeal.RefValue.wrap v = Cert.KernelIdeal.KHost.wrap v := rfl
theorem dis_eq (col : Cert.KernelIdeal.S600000.Idx → BitVec 32) :
    Cert.ReferenceIdeal.RefValue.dis (F := F) col = Cert.KernelIdeal.KHost.dis (F := F) col := rfl

end AnyInstance

/-- The printed dimension numbers are the row-gather's, the entry-gather's and the row-add's. -/
theorem dSK_eq : Cert.KernelIdeal.scatter_S50000x128_S600000x1_S600000x128_1_0_0_1
    = addRowsDims 50000 600000 128 Cert.KernelIdeal.Facts₀.scatter_S50000x128_S600000x1_S600000x128_1_0_0_1_wf := rfl
theorem dGK_eq : Cert.KernelIdeal.gather_S50000x128_S600000x1_S600000x128_1_0_n_n_0_1_1128
    = rowsDims 50000 600000 128 Cert.KernelIdeal.Facts₀.gather_S50000x128_S600000x1_S600000x128_1_0_n_n_0_1_1128_wf := rfl
theorem dSR_eq : Cert.ReferenceIdeal.scatter_S50000x128_S600000x1_S600000x128_1_0_0_1
    = addRowsDims 50000 600000 128 Cert.KernelIdeal.Facts₀.scatter_S50000x128_S600000x1_S600000x128_1_0_0_1_wf := rfl
theorem dGR_eq : Cert.ReferenceIdeal.gather_S50000x128_S600000x1_S600000x128_1_0_n_n_0_1_1128
    = rowsDims 50000 600000 128 Cert.KernelIdeal.Facts₀.gather_S50000x128_S600000x1_S600000x128_1_0_n_n_0_1_1128_wf := rfl
theorem dVR_eq : Cert.ReferenceIdeal.gather_S50000_S600000x1_S600000_n_0_n_n_0_1_1
    = entriesDims 50000 600000 Cert.ReferenceIdeal.Facts₀.gather_S50000_S600000x1_S600000_n_0_n_n_0_1_1_wf := rfl

/-! ## The degree factors and the wrapped indices -/

/-- The guard ε (the f32 nearest 1e-12) is a positive real. -/
theorem eps_pos : (0 : EReal) < Ideal.ofBits .f32 0x2B8CBCCC#32 := by
  simp [Ideal.ofBits, Ideal.ieee]
  positivity

/-- Every degree factor lies in [0, ⊤): it is 0, or the inverse square root of a number that is at least ε. -/
theorem dis_range (col : Cert.KernelIdeal.S600000.Idx → BitVec 32) (n : Cert.KernelIdeal.S50000.Idx) :
    0 ≤ Cert.KernelIdeal.KHost.dis (F := Ideal) col n ∧ Cert.KernelIdeal.KHost.dis (F := Ideal) col n ≠ ⊤ := by
  rw [Cert.KernelIdeal.KHost.dis_apply]
  simp only [Ideal.cmpf_def, Ideal.hostUnary_rsqrt_def, Ideal.maximumf_def, Ideal.ofBits_def]
  exact guarded_rsqrt_range _ _ _ eps_pos Ideal.ofBits_zero_f32

/-- The zero operand the rows are added into is zero at every element. -/
theorem zeros_apply (i : Cert.KernelIdeal.S50000x128.Idx) :
    broadcastInDim Cert.KernelIdeal.S50000x128 ![] Cert.KernelIdeal.Facts₀.bcast_S_S50000x128
      (constant (F := Ideal) Cert.KernelIdeal.S_ .f32 0x00000000#32) i = 0 := by
  rw [broadcastInDim_scalar_apply, constant_apply]
  exact Ideal.ofBits_zero_f32

/-- A target index that is not negative is its own wrapped form. -/
theorem wrap_col (col : Cert.KernelIdeal.S600000.Idx → BitVec 32) (e : Fin 600000)
    (h : 0 ≤ (broadcastInDim Cert.KernelIdeal.S600000x1 ![0] Cert.KernelIdeal.Facts₀.bcast_S600000_S600000x1_0 col (at0 e)).toInt) :
    Cert.KernelIdeal.KHost.wrap col (at0 e)
      = broadcastInDim Cert.KernelIdeal.S600000x1 ![0] Cert.KernelIdeal.Facts₀.bcast_S600000_S600000x1_0 col (at0 e) := by
  unfold Cert.KernelIdeal.KHost.wrap
  rw [bcast_unit_apply] at h
  rw [bcast_unit_apply, bcast_unit_apply]
  exact wrap_of_nonneg (col (ix1 e)) _ h

/-! ## The aggregates -/

set_option maxHeartbeats 2000000 in
/-- The two arrangements of the aggregate agree. -/
theorem agg_eq (xl : FVec Ideal Cert.KernelIdeal.S50000x128 .f32) (row col : Cert.KernelIdeal.S600000.Idx → BitVec 32) :
    Cert.KernelIdeal.KHost.aggK (F := Ideal) xl row col = Cert.ReferenceIdeal.RefValue.aggR (F := Ideal) xl row col := by
  unfold Cert.KernelIdeal.KHost.aggK Cert.KernelIdeal.KHost.disMat Cert.ReferenceIdeal.RefValue.aggR
  rw [dis_eq, wrap_eq, wrap_eq, dSK_eq, dGK_eq, dSR_eq, dGR_eq, dVR_eq]
  have h := hoist (N := 50000) (R := 600000) (C := 128) (by norm_num)
    Cert.KernelIdeal.Facts₀.scatter_S50000x128_S600000x1_S600000x128_1_0_0_1_wf
    Cert.KernelIdeal.Facts₀.gather_S50000x128_S600000x1_S600000x128_1_0_n_n_0_1_1128_wf
    Cert.ReferenceIdeal.Facts₀.gather_S50000_S600000x1_S600000_n_0_n_n_0_1_1_wf
    Cert.KernelIdeal.Facts₀.bcast_S50000_S50000x1_0 Cert.KernelIdeal.Facts₀.bcast_S50000x1_S50000x128_0_1
    Cert.ReferenceIdeal.Facts₀.bcast_S600000_S600000x1_0 Cert.ReferenceIdeal.Facts₀.bcast_S600000x1_S600000x128_0_1
    (broadcastInDim Cert.KernelIdeal.S50000x128 ![] Cert.KernelIdeal.Facts₀.bcast_S_S50000x128
      (constant (F := Ideal) Cert.KernelIdeal.S_ .f32 0x00000000#32))
    xl (fun i => zeros_apply i) (Cert.KernelIdeal.KHost.dis (F := Ideal) col) (fun n => dis_range col n)
    (Cert.KernelIdeal.KHost.wrap row) (Cert.KernelIdeal.KHost.wrap col)
    (broadcastInDim Cert.KernelIdeal.S600000x1 ![0] Cert.KernelIdeal.Facts₀.bcast_S600000_S600000x1_0 col)
    (fun e he => wrap_col col e he)
  exact h

/-- The two spellings of the linear features agree. -/
theorem lin_eq (x : FVec Ideal Cert.KernelIdeal.S50000x128 .f32) (w : FVec Ideal Cert.KernelIdeal.S128x128 .f32) :
    Cert.KernelIdeal.KRegions.lin x (transpose Cert.KernelIdeal.S128x128 [1, 0] w Cert.KernelIdeal.Facts₀.transposes_S128x128_S128x128_1_0)
      = Cert.ReferenceIdeal.RefValue.linR (F := Ideal) x w :=
  funext fun i => (Cert.ReferenceIdeal.RefValue.dot_apply x _ i).symm

/-! ## The results -/

/-- The kernel program's result function is the reference's. -/
theorem out_eq (x : FVec Ideal Cert.KernelIdeal.S50000x128 .f32) (ei : Cert.KernelIdeal.S2x600000.Idx → BitVec 32)
    (w : FVec Ideal Cert.KernelIdeal.S128x128 .f32) (b : FVec Ideal Cert.KernelIdeal.S128 .f32) :
    Cert.KernelIdeal.KHost.out x ei w b = Cert.ReferenceIdeal.RefValue.outR (F := Ideal) x ei w b := by
  funext i
  obtain ⟨n, k, rfl⟩ : ∃ (n : Fin 50000) (k : Fin 128), i = ix2 n k := ⟨i 0, i 1, eq_ix2 i⟩
  unfold Cert.KernelIdeal.KHost.out Cert.KernelIdeal.KRegions.post Cert.ReferenceIdeal.RefValue.outR
  rw [addf_apply, maximumf_apply, addf_apply, lin_eq, agg_eq, rowOf_eq, colOf_eq]
  have hb : shapeCast Cert.KernelIdeal.S1x128 b Cert.KernelIdeal.Facts₀.shapeCasts_S128_S1x128 (ix2 (0 : Fin 1) k) = b (ix1 k) :=
    shapeCast_a_1a_apply b _ 0 k
  have hb' : broadcastInDim Cert.ReferenceIdeal.S50000x128 ![0, 1] Cert.ReferenceIdeal.Facts₀.bcast_S1x128_S50000x128_0_1
      (broadcastInDim Cert.ReferenceIdeal.S1x128 ![1] Cert.ReferenceIdeal.Facts₀.bcast_S128_S1x128_1 b) (ix2 n k) = b (ix1 k) :=
    bcast_row_apply _ _ b n k
  have hz : broadcastInDim Cert.ReferenceIdeal.S50000x128 ![] Cert.ReferenceIdeal.Facts₀.bcast_S_S50000x128
      (constant (F := Ideal) Cert.ReferenceIdeal.S_ .f32 0x00000000#32) (ix2 n k) = Ideal.ofBits .f32 0x00000000#32 := by
    rw [broadcastInDim_scalar_apply, constant_apply]
  rw [hb', hz]
  exact congrArg (fun z => max (_ + z) _ + _) hb

end Cert.Bridge

end
-- ==== Proof.lean ====
/-
  GCN message passing with a residual: out = max(agg + b, 0) + x, where x_lin = x · Wᵀ, deg counts the edges into each
  node, dis = (deg > 0 ? 1/√max(deg, ε) : 0), and agg n = Σ over the edges e into n of x_lin[src e] · dis[src e] · dis[n].

  The kernel program computes x_lin block by block on the matrix unit (region 0), scales it by dis at the source,
  gathers, adds into target segments, scales by dis at the target, and finishes with a pointwise region (region 1).
  The reference scales each gathered row by dis[src] · dis[dst] and does everything on the host. At the ideal instance
  the two results are one function of the arguments (Proof/Bridge.lean): the only law used beyond associativity and
  commutativity is that a factor in [0, ⊤) distributes over a sum of extended reals, and every dis is such a factor,
  so the precondition is never opened. The frames of the two kernel programs are the generated ones; the reference's
  frame is its run with the result dropped; the idealization rewrote nothing.
-/
import proofs.«107665_j43671227466246_2_alg».proof.Defs
import proofs.«107665_j43671227466246_2_alg».proof.Proof.Gen.Kernel
import proofs.«107665_j43671227466246_2_alg».proof.Proof.Gen.Kernel.Skeleton
import proofs.«107665_j43671227466246_2_alg».proof.Proof.Gen.Kernel.Launch
import proofs.«107665_j43671227466246_2_alg».proof.Proof.Gen.Kernel.Points
import proofs.«107665_j43671227466246_2_alg».proof.Proof.Gen.Kernel.Frame
import proofs.«107665_j43671227466246_2_alg».proof.Proof.Gen.KernelIdeal
import proofs.«107665_j43671227466246_2_alg».proof.Proof.Gen.KernelIdeal.Skeleton
import proofs.«107665_j43671227466246_2_alg».proof.Proof.Gen.KernelIdeal.Launch
import proofs.«107665_j43671227466246_2_alg».proof.Proof.Gen.KernelIdeal.Points
import proofs.«107665_j43671227466246_2_alg».proof.Proof.Gen.KernelIdeal.Frame
import proofs.«107665_j43671227466246_2_alg».proof.Proof.Gen.ReferenceIdeal
import proofs.«107665_j43671227466246_2_alg».proof.Proof.Gen.Pre_finite_inputs
import proofs.«107665_j43671227466246_2_alg».proof.Proof.KRun
import proofs.«107665_j43671227466246_2_alg».proof.Proof.KHost
import proofs.«107665_j43671227466246_2_alg».proof.Proof.RefRun
import proofs.«107665_j43671227466246_2_alg».proof.Proof.RefValue
import proofs.«107665_j43671227466246_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result array at one function of the (agreeing) arguments. -/
theorem algebraic : Cert.algebraic_KernelIdeal_ReferenceIdeal := by
  intro m ρ m' ρ' _ hagree
  refine ⟨fun c => Cert.KernelIdeal.KHost.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.KHost.result_eq m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2]
    exact (Cert.Bridge.out_eq _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
